-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩

abbrev nBuf : Space → Nat
  | .hbm => 45
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x1, .f32⟩
  | .hbm, ⟨43, _⟩ => ⟨S1x64, .f32⟩
  | .hbm, ⟨44, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.BodyReads.lean ====
/-
  What the two kernel bodies compute from the blocks they load, read at an entry, on the extended reals.

  The first body multiplies a 5000×64 block by a 5000×1 column of per-row factors stretched across the 64 columns:
  entry (p, q) is x(p, q) · f(p, 0). The second does the same scaling, multiplies the scaled block by the 64×64
  matrix (a product accumulated into zeros: the sum over the contracted coordinate) and adds the 1×64 row stretched
  down the rows: entry (p, q) is the sum over k of (x(p, k) · f(p, 0)) · w(k, q), plus r(0, q).
-/
import proofs.«133837_j37941741093504_1_alg».proof.Proof.Gen.KernelIdeal.Skeleton
import proofs.«133837_j37941741093504_1_alg».proof.Proof.LibBlockReads
import proofs.«133837_j37941741093504_1_alg».proof.Proof.LibRowReductions
import Idealize.ShloMosaic.Lib.ValueIdx
import Idealize.ShloMosaic.Lib.Pipeline.Value

open scoped BigOperators

noncomputable section

namespace Cert.GraphConv

open Idealize.ShloMosaic Idealize.ShloMosaic.ValueIdx Cert.KernelIdeal Cert.KernelIdeal.Gen

/-- The row-scaling body at (p, q): the block's entry times the row's factor. -/
theorem scale_body_apply (x : FVec Ideal S5000x64 .f32) (f : FVec Ideal S5000x1 .f32) (p : Fin 5000) (q : Fin 64) :
    k0_pay1 (F := Ideal) x f (ix2 p q) = x (ix2 p q) * f (ix2 p 0) := by
  unfold k0_pay1
  show x (ix2 p q) * broadcastTo S5000x64 (shapeCast S5000x1 f _) _ (ix2 p q) = _
  rw [Cert.Lib.RowReductions.broadcast_col_apply, shapeCast_self]

/-- The scale-multiply-add body at (p, q). -/
theorem affine_body_apply (x : FVec Ideal S5000x64 .f32) (f : FVec Ideal S5000x1 .f32) (w : FVec Ideal S64x64 .f32)
    (r : FVec Ideal S1x64 .f32) (p : Fin 5000) (q : Fin 64) :
    k1_pay1 (F := Ideal) x f w r (ix2 p q) = (∑ k : Fin 64, (x (ix2 p k) * f (ix2 p 0)) * w (ix2 k q)) + r (ix2 0 q) := by
  unfold k1_pay1
  show matmul (F := Ideal) dot_S5000x64_S64x64_S5000x64_1_0_0_1_n_n (some .fp32)
        (mulf (F := Ideal) (φ := .f32) (shapeCast S5000x64 x Facts₀.shapeCasts_S5000x64_S5000x64)
          (broadcastTo S5000x64 (shapeCast S5000x1 f Facts₀.shapeCasts_S5000x1_S5000x1) Facts₀.broadcasts_S5000x1_S5000x64))
        w (constant (F := Ideal) S5000x64 .f32 0x00000000#32) (ix2 p q)
      + broadcastTo S5000x64 (shapeCast S1x64 r Facts₀.shapeCasts_S1x64_S1x64) Facts₀.broadcasts_S1x64_S5000x64 (ix2 p q) = _
  rw [Cert.Lib.BlockReads.matmul_zero_rows_apply _ rfl rfl rfl rfl rfl rfl, Cert.Lib.BlockReads.broadcast_row_apply]
  simp only [shapeCast_self]
  refine congrArg (· + r (ix2 0 q)) (Finset.sum_congr rfl fun k _ => ?_)
  show x (ix2 p k) * broadcastTo S5000x64 f Facts₀.broadcasts_S5000x1_S5000x64 (ix2 p k) * w (ix2 k q) = _
  rw [Cert.Lib.RowReductions.broadcast_col_apply]

end Cert.GraphConv

end
-- ==== Proof.Layer.lean ====
/-
  The graph-convolution layer's two dense stages on the extended reals, as whole-array functions.

  `scaleRows X s` multiplies every row p of an n×d array X by its own factor s(p, 0), the factors given as an n×1
  column. `scaledAffine A s W b` scales the rows of A in the same way, multiplies the result by the d×e matrix W and
  adds the 1×e row b to every row: entry (p, q) is the sum over k of (A(p, k) · s(p, 0)) · W(k, q), plus b(0, q).
  Both are stated entry by entry with no rearrangement of the sums, so neither asks for finiteness.
  Nothing here mentions a program.
-/
import Idealize.ShloMosaic.PureOps.Ideal
import Idealize.ShloMosaic.Lib.ValueIdx

open scoped BigOperators

noncomputable section

namespace Cert.GraphConv

open Idealize.ShloMosaic Idealize.ShloMosaic.ValueIdx

variable {n d e : Nat}

/-- Row p of X times the factor s(p, 0). -/
def scaleRows (X : (⟨2, ![n, d]⟩ : Shape).Idx → EReal) (s : (⟨2, ![n, 1]⟩ : Shape).Idx → EReal) :
    (⟨2, ![n, d]⟩ : Shape).Idx → EReal :=
  fun i => X i * s (ix2 (⟨(i 0).val, idx2_lt0 i⟩ : Fin n) 0)

theorem scaleRows_apply (X : (⟨2, ![n, d]⟩ : Shape).Idx → EReal) (s : (⟨2, ![n, 1]⟩ : Shape).Idx → EReal)
    (p : Fin n) (q : Fin d) : scaleRows X s (ix2 p q) = X (ix2 p q) * s (ix2 p 0) := rfl

/-- The rows of A scaled by s, times W, plus the row b. -/
def scaledAffine (A : (⟨2, ![n, d]⟩ : Shape).Idx → EReal) (s : (⟨2, ![n, 1]⟩ : Shape).Idx → EReal)
    (W : (⟨2, ![d, e]⟩ : Shape).Idx → EReal) (b : (⟨2, ![1, e]⟩ : Shape).Idx → EReal) :
    (⟨2, ![n, e]⟩ : Shape).Idx → EReal :=
  fun i => (∑ k : Fin d, (A (ix2 (⟨(i 0).val, idx2_lt0 i⟩ : Fin n) k) * s (ix2 (⟨(i 0).val, idx2_lt0 i⟩ : Fin n) 0))
      * W (ix2 k (⟨(i 1).val, idx2_lt1 i⟩ : Fin e))) + b (ix2 0 (⟨(i 1).val, idx2_lt1 i⟩ : Fin e))

theorem scaledAffine_apply (A : (⟨2, ![n, d]⟩ : Shape).Idx → EReal) (s : (⟨2, ![n, 1]⟩ : Shape).Idx → EReal)
    (W : (⟨2, ![d, e]⟩ : Shape).Idx → EReal) (b : (⟨2, ![1, e]⟩ : Shape).Idx → EReal) (p : Fin n) (q : Fin e) :
    scaledAffine A s W b (ix2 p q) = (∑ k : Fin d, (A (ix2 p k) * s (ix2 p 0)) * W (ix2 k q)) + b (ix2 0 q) := rfl

end Cert.GraphConv

end
-- ==== Proof.ScaledRowsArray.lean ====
/-
  The first kernel's result array, from ANY contents `V` of the buffers when its region is entered: the rows of the
  feature array scaled by the column of factors, `scaleRows`.

  The grid has 20 points; point t loads rows 5000·t … 5000·t + 4999 of the features and of the factor column, and
  writes back the same rows of the result. A written row depends only on the same row of the two inputs, so what
  point t writes back is rows 5000·t … of `scaleRows` of the whole arrays; row r lies in the block of point r / 5000,
  so the blocks cover the array and it ends holding `scaleRows`.
-/
import proofs.«133837_j37941741093504_1_alg».proof.Proof.Gen.KernelIdeal.Frame
import proofs.«133837_j37941741093504_1_alg».proof.Proof.BodyReads
import proofs.«133837_j37941741093504_1_alg».proof.Proof.Layer
import Idealize.ShloMosaic.Lib.Pipeline.Value

noncomputable section

namespace Cert.GraphConv

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a rank-2 rectangle, as a constant function. -/
theorem zero_offset : (![0, 0] : Fin 2 → Nat) = fun _ => 0 := funext fun a => by fin_cases a <;> rfl

/-- At an entry y of a block and an entry i of the whole arrays such that the block's entry is X(i) and the block's
    factor for y's row is the factor of i's row, the row-scaling body gives `scaleRows X s` at i. -/
theorem scale_body_at (X : FVec Ideal S100000x64 .f32) (s : FVec Ideal S100000x1 .f32)
    (x : FVec Ideal S5000x64 .f32) (f : FVec Ideal S5000x1 .f32) (y : S5000x64.Idx) (i : S100000x64.Idx)
    (hx : x y = X i)
    (hf : f (ix2 (⟨(y 0).val, idx2_lt0 y⟩ : Fin 5000) 0) = s (ix2 (⟨(i 0).val, idx2_lt0 i⟩ : Fin 100000) 0)) :
    k0_pay1 (F := Ideal) x f y = scaleRows X s i := by
  obtain ⟨p, q, rfl⟩ : ∃ (p : Fin 5000) (q : Fin 64), y = ix2 p q := ⟨y 0, y 1, eq_ix2 y⟩
  rw [scale_body_apply, hx]
  exact congrArg (X i * ·) hf

/-- The three windows' block indices at point t: block row t, block column 0. -/
theorem scale_blocks : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of `scaleRows` of the features and the factor column as the region finds
    them. -/
theorem scaled_rows_block (c : Dev nD) (t : Fin cfg0.N) :
    (dat0 V c).flushed 2 t
      = ((cfg0.win 2).blk t).view.read (Elt Ideal) (scaleRows (V c main_arg0) (V c main_v15)) := by
  show (cfg0.win 2).cut (grid0.coords t) ((dat0 V c).after 2 t) = _
  rw [after0_2]
  unfold out0_2
  rw [View.canon_unit_zero zero_offset]
  simp only [View.ld_unit_zero (S := S5000x64) zero_offset, View.ld_unit_zero (S := S5000x1) zero_offset]
  obtain ⟨e0, e1, e2, e3, e4, e5⟩ := scale_blocks t
  funext j
  show k0_pay1 (F := Ideal) (iblk0 V c 0 t) (iblk0 V c 1 t) j
    = scaleRows (V c main_arg0) (V c main_v15) (((cfg0.win 2).blk t).view.emb j)
  refine scale_body_at (V c main_arg0) (V c main_v15) (iblk0 V c 0 t) (iblk0 V c 1 t) j _ ?_ ?_
  · show V c main_arg0 (((cfg0.win 0).blk t).view.emb j) = V c main_arg0 (((cfg0.win 2).blk t).view.emb j)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * (j 1).val = win0_2.index t (1 : Fin 2) * 64 + 1 * (j 1).val; omega
  · show V c main_v15 (((cfg0.win 1).blk t).view.emb (ix2 (⟨(j 0).val, idx2_lt0 j⟩ : Fin 5000) 0)) = V c main_v15 _
    refine congrArg (V c main_v15) (funext fun a => Fin.ext ?_)
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega

/-- An entry of the result array is in point t's block when its row is one of the block's 5000 rows (and its column
    one of the 64). -/
theorem scaled_mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v16).slice (win0_2.rect t)).set ↔ _
  rw [View.set_slice_whole, Rect.mem_set_unit]
  exact Iff.rfl

/-- Every entry of the result array is in the block of the point its row names. -/
theorem scaled_rows_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [scaled_mem_block]
  obtain ⟨-, -, -, -, e4, e5⟩ := scale_blocks ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- The result array after the region: the feature rows scaled by the factor column. -/
theorem scaled_rows_array (c : Dev nD) :
    (dat0 V c).arrAt 2 cfg0.N = scaleRows (V c main_arg0) (V c main_v15) :=
  (dat0 V c).arrAt_eq_of_cover 2 (scaleRows (V c main_arg0) (V c main_v15))
    (fun t _ => scaled_rows_block V c t) scaled_rows_cover

end Cert.GraphConv

end
-- ==== Proof.LayerArray.lean ====
/-
  The second kernel's result array, from ANY contents `V` of the buffers when its region is entered: the rows of the
  aggregated features scaled by the column of factors, times the weight matrix, plus the bias row — `scaledAffine`.

  The grid has 20 points; point t loads rows 5000·t … 5000·t + 4999 of the features and of the factor column, the
  whole 64×64 weight matrix and the whole 1×64 bias row, and writes back the same rows of the result. Entry (p, q) of
  what it writes depends on row p of the loaded features, the factor of row p, column q of the weights and entry q of
  the bias, so what point t writes back is rows 5000·t … of `scaledAffine` of the whole arrays; row r lies in the block
  of point r / 5000, so the blocks cover the array and it ends holding `scaledAffine`.
-/
import proofs.«133837_j37941741093504_1_alg».proof.Proof.Gen.KernelIdeal.Frame
import proofs.«133837_j37941741093504_1_alg».proof.Proof.BodyReads
import proofs.«133837_j37941741093504_1_alg».proof.Proof.Layer
import Idealize.ShloMosaic.Lib.Pipeline.Value

open scoped BigOperators

noncomputable section

namespace Cert.GraphConv

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a rank-2 rectangle, as a constant function. -/
theorem origin2 : (![0, 0] : Fin 2 → Nat) = fun _ => 0 := funext fun a => by fin_cases a <;> rfl

/-- At an entry y of a block and an entry i of the whole arrays in the same column, such that row y of the loaded
    features is row i of A, the loaded factor of y's row is the factor of i's row, and the loaded weights and bias are
    the whole W and b, the scale-multiply-add body gives `scaledAffine A s W b` at i. -/
theorem affine_body_at (A : FVec Ideal S100000x64 .f32) (s : FVec Ideal S100000x1 .f32)
    (Wt : FVec Ideal S64x64 .f32) (b : FVec Ideal S1x64 .f32)
    (x : FVec Ideal S5000x64 .f32) (f : FVec Ideal S5000x1 .f32) (w : FVec Ideal S64x64 .f32) (r : FVec Ideal S1x64 .f32)
    (y : S5000x64.Idx) (i : S100000x64.Idx)
    (hx : ∀ k : Fin 64, x (ix2 (⟨(y 0).val, idx2_lt0 y⟩ : Fin 5000) k) = A (ix2 (⟨(i 0).val, idx2_lt0 i⟩ : Fin 100000) k))
    (hf : f (ix2 (⟨(y 0).val, idx2_lt0 y⟩ : Fin 5000) 0) = s (ix2 (⟨(i 0).val, idx2_lt0 i⟩ : Fin 100000) 0))
    (hw : w = Wt) (hr : r = b) (hcol : (y 1).val = (i 1).val) :
    k1_pay1 (F := Ideal) x f w r y = scaledAffine A s Wt b i := by
  obtain ⟨p, q, rfl⟩ : ∃ (p : Fin 5000) (q : Fin 64), y = ix2 p q := ⟨y 0, y 1, eq_ix2 y⟩
  obtain ⟨p', q', rfl⟩ : ∃ (p' : Fin 100000) (q' : Fin 64), i = ix2 p' q' := ⟨i 0, i 1, eq_ix2 i⟩
  have hq : q = q' := Fin.ext hcol
  subst hq hw hr
  have hx' : ∀ k : Fin 64, x (ix2 p k) = A (ix2 p' k) := hx
  have hf' : f (ix2 p 0) = s (ix2 p' 0) := hf
  rw [affine_body_apply, scaledAffine_apply]
  refine congrArg (· + r (ix2 0 q)) (Finset.sum_congr rfl fun k _ => ?_)
  rw [hx' k, hf']

/-- The five windows' block indices at point t: block row t for the features, the factors and the result, the one
    block of the weights and of the bias. -/
theorem layer_blocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of `scaledAffine` of the aggregated features, the factor column, the weights
    and the bias row as the region finds them. -/
theorem layer_block (c : Dev nD) (t : Fin cfg1.N) :
    (dat1 V c).flushed 4 t
      = ((cfg1.win 4).blk t).view.read (Elt Ideal)
          (scaledAffine (V c main_v26) (V c main_v27) (V c main_arg3) (V c main_v28)) := by
  show (cfg1.win 4).cut (grid1.coords t) ((dat1 V c).after 4 t) = _
  rw [after1_4]
  unfold out1_4
  rw [View.canon_unit_zero origin2]
  simp only [View.ld_unit_zero (S := S5000x64) origin2, View.ld_unit_zero (S := S5000x1) origin2,
    View.ld_unit_zero (S := S64x64) origin2, View.ld_unit_zero (S := S1x64) origin2]
  obtain ⟨e0, e1, e2, e3, e4, e5, e6, e7, e8, e9⟩ := layer_blocks t
  funext j
  show k1_pay1 (F := Ideal) (iblk1 V c 0 t) (iblk1 V c 1 t) (iblk1 V c 2 t) (iblk1 V c 3 t) j
    = scaledAffine (V c main_v26) (V c main_v27) (V c main_arg3) (V c main_v28) (((cfg1.win 4).blk t).view.emb j)
  refine affine_body_at (V c main_v26) (V c main_v27) (V c main_arg3) (V c main_v28)
    (iblk1 V c 0 t) (iblk1 V c 1 t) (iblk1 V c 2 t) (iblk1 V c 3 t) j _ (fun k => ?_) ?_ ?_ ?_ ?_
  · show V c main_v26 (((cfg1.win 0).blk t).view.emb (ix2 (⟨(j 0).val, idx2_lt0 j⟩ : Fin 5000) k)) = V c main_v26 _
    refine congrArg (V c main_v26) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * k.val = k.val; omega
  · show V c main_v27 (((cfg1.win 1).blk t).view.emb (ix2 (⟨(j 0).val, idx2_lt0 j⟩ : Fin 5000) 0)) = V c main_v27 _
    refine congrArg (V c main_v27) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  · funext y
    show V c main_arg3 (((cfg1.win 2).blk t).view.emb y) = V c main_arg3 y
    refine congrArg (V c main_arg3) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · funext y
    show V c main_v28 (((cfg1.win 3).blk t).view.emb y) = V c main_v28 y
    refine congrArg (V c main_v28) (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  · show (j 1).val = win1_4.index t (1 : Fin 2) * 64 + 1 * (j 1).val; omega

/-- An entry of the result array is in point t's block when its row is one of the block's 5000 rows (and its column
    one of the 64). -/
theorem layer_mem_block (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v29).slice (win1_4.rect t)).set ↔ _
  rw [View.set_slice_whole, Rect.mem_set_unit]
  exact Iff.rfl

/-- Every entry of the result array is in the block of the point its row names. -/
theorem layer_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_4 _, ?_⟩
  rw [layer_mem_block]
  obtain ⟨-, -, -, -, -, -, -, -, e8, e9⟩ := layer_blocks ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e8]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e9]; omega

/-- The result array after the region. -/
theorem layer_array (c : Dev nD) :
    (dat1 V c).arrAt 4 cfg1.N = scaledAffine (V c main_v26) (V c main_v27) (V c main_arg3) (V c main_v28) :=
  (dat1 V c).arrAt_eq_of_cover 4 (scaledAffine (V c main_v26) (V c main_v27) (V c main_arg3) (V c main_v28))
    (fun t _ => layer_block V c t) layer_cover

end Cert.GraphConv

end
-- ==== Proof.HostStretches.lean ====
/-
  The two stretches of host operations of the kernel's program, read at the buffers the two kernels and the result
  depend on, from ANY contents `W` of the buffers when the stretch starts.

  The first stretch counts, for each node, the edges leaving it and the edges entering it (a scatter-add of ones),
  clamps each count below at one and raises it to the power −1/2; it leaves the out-degree factors as a 100000×1
  column, the in-degree factors as a vector, and the arguments untouched. The second stretch gathers the rows of the
  scaled features at the edges' sources and adds each into the row of the edge's target, re-shapes the in-degree
  factors to a column and the bias to a 1×64 row, and leaves the weight matrix untouched.

  Both are stated with the reference program's own stage functions (its degree factors, its aggregation), which the
  kernel's host operations spell identically, so that the two programs' shared stages are never opened.
-/
import proofs.«133837_j37941741093504_1_alg».proof.Proof.Gen.KernelIdeal.Launch
import proofs.«133837_j37941741093504_1_alg».proof.Proof.Gen.ReferenceIdeal.Read
import Idealize.ShloMosaic.Lib.StableHlo.Run

noncomputable section

namespace Cert.GraphConv

open Idealize.ShloMosaic Idealize.ShloMosaic.TcCoe Idealize.ShloMosaic.StableHlo
open Cert.KernelIdeal Cert.KernelIdeal.Gen

/-- The aggregation over the edges of an array of node features: the rows gathered at the edges' sources (a negative
    index wrapped once, as the reference writes it) and each added into the row of the edge's target, from zeros. -/
def aggregate (xn : FVec Ideal Cert.ReferenceIdeal.S100000x64 .f32)
    (src dst : IVec Cert.ReferenceIdeal.S1600000 32) : FVec Ideal Cert.ReferenceIdeal.S100000x64 .f32 :=
  Host.scatterAdd (F := Ideal) Cert.ReferenceIdeal.scatter_S100000x64_S1600000x1_S1600000x64_1_0_0_1
    (Cert.ReferenceIdeal.Read.val_main_v25 (F := Ideal)) (Cert.ReferenceIdeal.Read.val_main_v26 (F := Ideal) dst)
    (Host.gather Cert.ReferenceIdeal.gather_S100000x64_S1600000x1_S1600000x64_1_0_n_n_0_1_164 xn
      (Cert.ReferenceIdeal.Read.val_main_v23 (F := Ideal) src))

/-- The reference's aggregated features are `aggregate` of its scaled features. -/
theorem ref_aggregate (x0 : FVec Ideal Cert.ReferenceIdeal.S100000x64 .f32)
    (x1 x2 : IVec Cert.ReferenceIdeal.S1600000 32) :
    Cert.ReferenceIdeal.Read.val_main_v27 (F := Ideal) x0 x1 x2
      = aggregate (Cert.ReferenceIdeal.Read.val_main_v17 (F := Ideal) x0 x1) x1 x2 := rfl

variable (W : Valuation τ sig (Elt Ideal))

/-! ## The first stretch -/

/-- The out-degree factors, as a column. -/
theorem stretch0_srcNorm :
    after (hostOps0 (F := Ideal)) W (Proc.devRef .tc main_v15)
      = shapeCast S100000x1 (Cert.ReferenceIdeal.Read.val_main_v10 (F := Ideal) (W (Proc.devRef .tc main_arg1)))
          Facts₀.shapeCasts_S100000_S100000x1 := by
  after_results; rfl

/-- The in-degree factors, as a vector. -/
theorem stretch0_dstNorm :
    after (hostOps0 (F := Ideal)) W (Proc.devRef .tc main_v14)
      = Cert.ReferenceIdeal.Read.val_main_v14 (F := Ideal) (W (Proc.devRef .tc main_arg2)) := by
  after_results; rfl

theorem stretch0_arg0 : after (hostOps0 (F := Ideal)) W (Proc.devRef .tc main_arg0) = W (Proc.devRef .tc main_arg0) := by
  after_results
theorem stretch0_arg1 : after (hostOps0 (F := Ideal)) W (Proc.devRef .tc main_arg1) = W (Proc.devRef .tc main_arg1) := by
  after_results
theorem stretch0_arg2 : after (hostOps0 (F := Ideal)) W (Proc.devRef .tc main_arg2) = W (Proc.devRef .tc main_arg2) := by
  after_results
theorem stretch0_arg3 : after (hostOps0 (F := Ideal)) W (Proc.devRef .tc main_arg3) = W (Proc.devRef .tc main_arg3) := by
  after_results
theorem stretch0_arg4 : after (hostOps0 (F := Ideal)) W (Proc.devRef .tc main_arg4) = W (Proc.devRef .tc main_arg4) := by
  after_results

/-! ## The second stretch -/

/-- The aggregated features. -/
theorem stretch1_aggregate :
    after (hostOps1 (F := Ideal)) W (Proc.devRef .tc main_v26)
      = aggregate (W (Proc.devRef .tc main_v16)) (W (Proc.devRef .tc main_arg1)) (W (Proc.devRef .tc main_arg2)) := by
  after_results; rfl

/-- The in-degree factors, as a column. -/
theorem stretch1_dstNorm :
    after (hostOps1 (F := Ideal)) W (Proc.devRef .tc main_v27)
      = shapeCast S100000x1 (W (Proc.devRef .tc main_v14)) Facts₀.shapeCasts_S100000_S100000x1 := by
  after_results; rfl

/-- The bias, as a row. -/
theorem stretch1_bias :
    after (hostOps1 (F := Ideal)) W (Proc.devRef .tc main_v28)
      = shapeCast S1x64 (W (Proc.devRef .tc main_arg4)) Facts₀.shapeCasts_S64_S1x64 := by
  after_results; rfl

theorem stretch1_weights : after (hostOps1 (F := Ideal)) W (Proc.devRef .tc main_arg3) = W (Proc.devRef .tc main_arg3) := by
  after_results

end Cert.GraphConv

end
-- ==== Proof.ProgramValue.lean ====
/-
  The kernel's program as ONE function of its five arguments, on the extended reals: the features with every row
  scaled by its node's out-degree factor, aggregated over the edges, then every row scaled by its node's in-degree
  factor, multiplied by the weights, with the bias added to every row.
  The degree factors and the aggregation are the reference program's own stages (the kernel's host operations spell
  them identically); the two scalings and the dense layer are `scaleRows` and `scaledAffine`.
-/
import proofs.«133837_j37941741093504_1_alg».proof.Proof.HostStretches
import proofs.«133837_j37941741093504_1_alg».proof.Proof.Layer

noncomputable section

namespace Cert.GraphConv

open Idealize.ShloMosaic Cert.KernelIdeal

/-- The kernel's program's result from its arguments: features, edge sources, edge targets, weights, bias. -/
def layerOut (x0 : FVec Ideal S100000x64 .f32) (x1 x2 : IVec S1600000 32) (x3 : FVec Ideal S64x64 .f32)
    (x4 : FVec Ideal S64 .f32) : FVec Ideal S100000x64 .f32 :=
  scaledAffine
    (aggregate
      (scaleRows x0 (shapeCast S100000x1 (Cert.ReferenceIdeal.Read.val_main_v10 (F := Ideal) x1)
        Facts₀.shapeCasts_S100000_S100000x1))
      x1 x2)
    (shapeCast S100000x1 (Cert.ReferenceIdeal.Read.val_main_v14 (F := Ideal) x2) Facts₀.shapeCasts_S100000_S100000x1)
    x3 (shapeCast S1x64 x4 Facts₀.shapeCasts_S64_S1x64)

end Cert.GraphConv

end
-- ==== Proof.KernelRun.lean ====
/-
  The kernel's program run, with its result read as ONE function of the arguments.

  The program is two stretches of host operations and two kernel regions. Its run leaves every buffer at the
  contents a fold through the four segments gives it; the result buffer is the second region's output array. That
  array is `scaledAffine` of the aggregated features, the in-degree factor column, the weights and the bias row as the
  second region finds them; the second stretch computes these from the first region's output array, which is
  `scaleRows` of the features and the out-degree factor column as the first region finds them; and the first stretch
  computes the factors from the edge lists and touches no argument. Composed: `layerOut` of the five arguments.
-/
import proofs.«133837_j37941741093504_1_alg».proof.Proof.Gen.KernelIdeal.Frame
import proofs.«133837_j37941741093504_1_alg».proof.Proof.ScaledRowsArray
import proofs.«133837_j37941741093504_1_alg».proof.Proof.LayerArray
import proofs.«133837_j37941741093504_1_alg».proof.Proof.HostStretches
import proofs.«133837_j37941741093504_1_alg».proof.Proof.ProgramValue

set_option maxRecDepth 16384

noncomputable section

namespace Cert.GraphConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    segment boundary's contents and the arguments as launched. -/
theorem run_named : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Run

/-! ## The result buffer's contents, on the extended reals -/

variable (m : (ℓ : Loc nD τ sig) → Buf (Elt Ideal) ℓ) (ρ : Dev nD → PrngReg)

/-- The first stretch leaves the features as launched. -/
theorem entry0_features (c : Dev nD) : V1 m ρ c main_arg0 = m ((c : Thread nD τ).loc main_arg0) :=
  stretch0_arg0 (W0 m ρ c)

/-- The first stretch leaves the out-degree factors, as a column, of the edge sources as launched. -/
theorem entry0_factors (c : Dev nD) :
    V1 m ρ c main_v15 = shapeCast S100000x1
      (Cert.ReferenceIdeal.Read.val_main_v10 (F := Ideal) (m ((c : Thread nD τ).loc main_arg1)))
      Facts₀.shapeCasts_S100000_S100000x1 :=
  stretch0_srcNorm (W0 m ρ c)

/-- Between the regions the edge sources are as launched: the first region has no window on them. -/
theorem mid_sources (c : Dev nD) : W2 m ρ c (Proc.devRef .tc main_arg1) = m ((c : Thread nD τ).loc main_arg1) :=
  (W2_of_ne m ρ c main_arg1 (by decide)).trans (stretch0_arg1 (W0 m ρ c))

/-- Between the regions the edge targets are as launched. -/
theorem mid_targets (c : Dev nD) : W2 m ρ c (Proc.devRef .tc main_arg2) = m ((c : Thread nD τ).loc main_arg2) :=
  (W2_of_ne m ρ c main_arg2 (by decide)).trans (stretch0_arg2 (W0 m ρ c))

/-- Between the regions the weights are as launched. -/
theorem mid_weights (c : Dev nD) : W2 m ρ c (Proc.devRef .tc main_arg3) = m ((c : Thread nD τ).loc main_arg3) :=
  (W2_of_ne m ρ c main_arg3 (by decide)).trans (stretch0_arg3 (W0 m ρ c))

/-- Between the regions the bias is as launched. -/
theorem mid_bias (c : Dev nD) : W2 m ρ c (Proc.devRef .tc main_arg4) = m ((c : Thread nD τ).loc main_arg4) :=
  (W2_of_ne m ρ c main_arg4 (by decide)).trans (stretch0_arg4 (W0 m ρ c))

/-- Between the regions the in-degree factors are what the first stretch computed from the edge targets. -/
theorem mid_factors (c : Dev nD) :
    W2 m ρ c (Proc.devRef .tc main_v14)
      = Cert.ReferenceIdeal.Read.val_main_v14 (F := Ideal) (m ((c : Thread nD τ).loc main_arg2)) :=
  (W2_of_ne m ρ c main_v14 (by decide)).trans (stretch0_dstNorm (W0 m ρ c))

/-- Between the regions the scaled features are `scaleRows` of the launched features by the out-degree factors. -/
theorem mid_scaled (c : Dev nD) :
    W2 m ρ c (Proc.devRef .tc main_v16)
      = scaleRows (m ((c : Thread nD τ).loc main_arg0))
          (shapeCast S100000x1 (Cert.ReferenceIdeal.Read.val_main_v10 (F := Ideal) (m ((c : Thread nD τ).loc main_arg1)))
            Facts₀.shapeCasts_S100000_S100000x1) := by
  refine ((W2_arr m ρ c 2).trans (scaled_rows_array (V1 m ρ) c)).trans ?_
  rw [entry0_features, entry0_factors]

/-- The result buffer after the run is `layerOut` of the launched arguments. -/
theorem result_value (c : Dev nD) :
    W4 m ρ c (Proc.devRef .tc main_v29)
      = layerOut (m ((c : Thread nD τ).loc main_arg0)) (m ((c : Thread nD τ).loc main_arg1))
          (m ((c : Thread nD τ).loc main_arg2)) (m ((c : Thread nD τ).loc main_arg3)) (m ((c : Thread nD τ).loc main_arg4)) := by
  refine ((W4_arr m ρ c 4).trans (layer_array (V3 m ρ) c)).trans ?_
  have h26 : V3 m ρ c main_v26 = aggregate (W2 m ρ c (Proc.devRef .tc main_v16)) (W2 m ρ c (Proc.devRef .tc main_arg1))
      (W2 m ρ c (Proc.devRef .tc main_arg2)) := stretch1_aggregate (W2 m ρ c)
  have h27 : V3 m ρ c main_v27 = shapeCast S100000x1 (W2 m ρ c (Proc.devRef .tc main_v14))
      Facts₀.shapeCasts_S100000_S100000x1 := stretch1_dstNorm (W2 m ρ c)
  have h28 : V3 m ρ c main_v28 = shapeCast S1x64 (W2 m ρ c (Proc.devRef .tc main_arg4)) Facts₀.shapeCasts_S64_S1x64 :=
    stretch1_bias (W2 m ρ c)
  have h3 : V3 m ρ c main_arg3 = W2 m ρ c (Proc.devRef .tc main_arg3) := stretch1_weights (W2 m ρ c)
  rw [h26, h27, h28, h3, mid_scaled, mid_sources, mid_targets, mid_factors, mid_weights, mid_bias]
  rfl

/-- The program's run, read: the result at `layerOut` of the arguments, the arguments unchanged. -/
theorem run_value : θ_run defs (onTc (τ := τ) (main (F := Ideal))) ⟨m, fun _ => 0, ρ⟩ (fun r => ∀ c : Dev nD,
      r.2.mem ((c.tc : Thread nD τ).loc main_v29)
        = layerOut (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_named m ρ)

end Cert.GraphConv

end
-- ==== Proof.Bridge.lean ====
/-
  The kernel's program and the reference compute the same function of the arguments, entry by entry, on the extended
  reals.

  The reference scales the features by broadcasting the out-degree factors across the 64 columns and multiplying;
  entry (p, q) is x(p, q) times the factor of node p, which is `scaleRows` with the factors as a column. Its
  aggregation is then the same function of the same array. Its last three stages — the in-degree factors broadcast
  across the columns and multiplied in, the product with the weights, the bias broadcast down the rows and added —
  are at (p, q) the sum over k of (agg(p, k) · factor(p)) · W(k, q), plus b(q): `scaledAffine`, term for term, with
  no rearrangement of the sum.
-/
import proofs.«133837_j37941741093504_1_alg».proof.Proof.ProgramValue
import proofs.«133837_j37941741093504_1_alg».proof.Proof.LibRowReductions
import Idealize.ShloMosaic.Lib.ValueIdx

open scoped BigOperators

noncomputable section

namespace Cert.GraphConv

open Idealize.ShloMosaic Idealize.ShloMosaic.ValueIdx
open Cert.ReferenceIdeal Cert.ReferenceIdeal.Read

/-- The reference's scaled features are `scaleRows` of the features by the out-degree factors as a column. -/
theorem ref_scaled (x0 : FVec Ideal S100000x64 .f32) (x1 : IVec S1600000 32) :
    scaleRows x0 (shapeCast Cert.KernelIdeal.S100000x1 (val_main_v10 (F := Ideal) x1)
        Cert.KernelIdeal.Facts₀.shapeCasts_S100000_S100000x1)
      = val_main_v17 (F := Ideal) x0 x1 := by
  funext i
  obtain ⟨p, q, rfl⟩ : ∃ (p : Fin 100000) (q : Fin 64), i = ix2 p q := ⟨i 0, i 1, eq_ix2 i⟩
  have e : idx_main_v15 (idx_main_v16 (ix2 p q)) = ix1 p :=
    funext fun a => Fin.ext (by match a with | ⟨0, _⟩ => rfl)
  rw [scaleRows_apply, Cert.Lib.RowReductions.shapeCast_col_apply, val_main_v17_apply, val_main_v16_apply,
    val_main_v15_apply, e]
  rfl

/-- The kernel's program's function of the arguments is the reference's. -/
theorem layerOut_eq_ref (x0 : FVec Ideal S100000x64 .f32) (x1 x2 : IVec S1600000 32) (x3 : FVec Ideal S64x64 .f32)
    (x4 : FVec Ideal S64 .f32) :
    layerOut x0 x1 x2 x3 x4 = val_main_v34 (F := Ideal) x0 x1 x2 x3 x4 := by
  funext i
  obtain ⟨p, q, rfl⟩ : ∃ (p : Fin 100000) (q : Fin 64), i = ix2 p q := ⟨i 0, i 1, eq_ix2 i⟩
  have el : ∀ k : Fin 64, lidx_main_v31 (ix2 p q) k = ix2 p k := fun k =>
    funext fun a => Fin.ext (by match a with | ⟨0, _⟩ => rfl | ⟨1, _⟩ => rfl)
  have er : ∀ k : Fin 64, ridx_main_v31 (ix2 p q) k = ix2 k q := fun k =>
    funext fun a => Fin.ext (by match a with | ⟨0, _⟩ => rfl | ⟨1, _⟩ => rfl)
  have eb : idx_main_v32 (idx_main_v33 (ix2 p q)) = ix1 q :=
    funext fun a => Fin.ext (by match a with | ⟨0, _⟩ => rfl)
  have en : ∀ k : Fin 64, idx_main_v28 (idx_main_v29 (ix2 p k)) = ix1 p := fun k =>
    funext fun a => Fin.ext (by match a with | ⟨0, _⟩ => rfl)
  unfold layerOut
  rw [scaledAffine_apply, ref_scaled, ← ref_aggregate, Cert.Lib.RowReductions.shapeCast_col_apply,
    Cert.Lib.RowReductions.shapeCast_rowvec_apply, val_main_v34_apply, val_main_v31_apply, val_main_v33_apply,
    val_main_v32_apply, eb]
  refine congrArg (· + x4 (ix1 q)) (Finset.sum_congr rfl fun k _ => ?_)
  rw [el, er, val_main_v30_apply, val_main_v29_apply, val_main_v28_apply, en]
  rfl

end Cert.GraphConv

end
-- ==== Proof.lean ====
/- A graph-convolution layer h = D_in^(−1/2) · A · D_out^(−1/2) · x · W + b: the kernel's program against the plain
   reference, equal on the extended reals.

   Both programs count, for each node, its out-going and in-coming edges, clamp the counts below at one and raise them
   to the power −1/2; both gather the scaled feature rows at the edges' sources and add them into the rows of the
   edges' targets. These stages are spelt identically in the two programs and are never opened. What differs is how
   the two row scalings and the dense layer are computed: the kernel's program scales the rows of the features in one
   kernel, block of 5000 rows by block, and in a second kernel scales the rows of the aggregated features, multiplies
   by the 64×64 weights (a product accumulated into zeros) and adds the bias row, again block by block; the reference
   broadcasts the factors across the columns, multiplies, takes one whole product with the weights and adds the
   broadcast bias. Entry (p, q) of either result is the sum over k of (agg(p, k) · f_in(p)) · W(k, q), plus b(q), with
   agg the aggregation of the rows x(p, ·) · f_out(p): the same terms in the same arrangement, so no law of
   arithmetic beyond reading each operation at an entry is used, and the inputs' finiteness is never needed.

   The frames of the two kernel programs are the generated ones; the reference's frame is its generated run with the
   result dropped; the idealization rewrote nothing. -/
import proofs.«133837_j37941741093504_1_alg».proof.Defs
import proofs.«133837_j37941741093504_1_alg».proof.Proof.Gen.Kernel
import proofs.«133837_j37941741093504_1_alg».proof.Proof.Gen.Kernel.Skeleton
import proofs.«133837_j37941741093504_1_alg».proof.Proof.Gen.Kernel.Launch
import proofs.«133837_j37941741093504_1_alg».proof.Proof.Gen.Kernel.Points
import proofs.«133837_j37941741093504_1_alg».proof.Proof.Gen.Kernel.Frame
import proofs.«133837_j37941741093504_1_alg».proof.Proof.Gen.KernelIdeal
import proofs.«133837_j37941741093504_1_alg».proof.Proof.Gen.KernelIdeal.Skeleton
import proofs.«133837_j37941741093504_1_alg».proof.Proof.Gen.KernelIdeal.Launch
import proofs.«133837_j37941741093504_1_alg».proof.Proof.Gen.KernelIdeal.Points
import proofs.«133837_j37941741093504_1_alg».proof.Proof.Gen.KernelIdeal.Frame
import proofs.«133837_j37941741093504_1_alg».proof.Proof.Gen.ReferenceIdeal
import proofs.«133837_j37941741093504_1_alg».proof.Proof.Gen.Pre_finite_inputs
import proofs.«133837_j37941741093504_1_alg».proof.Proof.Gen.ReferenceIdeal.Run
import proofs.«133837_j37941741093504_1_alg».proof.Proof.Gen.ReferenceIdeal.Read
import proofs.«133837_j37941741093504_1_alg».proof.Proof.KernelRun
import proofs.«133837_j37941741093504_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel's program ends with its result at `layerOut` of the arguments
    and the reference with its result at its own composed term of them: one function, entry by entry. -/
theorem algebraic : Cert.algebraic_KernelIdeal_ReferenceIdeal := by
  intro m ρ m' ρ' _ hagree
  refine ⟨fun c => Cert.GraphConv.layerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.GraphConv.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v34_eq _ _ _ _ _).trans (Cert.GraphConv.layerOut_eq_ref _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
